-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16x2048x1024 : Shape := ⟨3, ![16, 2048, 1024]⟩
abbrev S16x2048 : Shape := ⟨2, ![16, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S16x2048x1024 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S16x2048x1024 .f32 := Host.absf main_arg4
  let main_cst_6 : FVec F S_ .f32 := constant S_ .f32 0x7F800000#32
  let main_v20 : FVec F S16x2048x1024 .f32 := broadcastInDim S16x2048x1024 ![] bcast_S_S16x2048x1024 main_cst_6
  let main_v21 : IVec S16x2048x1024 1 := cmpf .olt main_v19 main_v20
  let main_c_7 : IVec S_ 1 := constantI S_ 1 1#1
  let main_v22 : IVec S_ 1 := (fun x v => Host.reduce IntOp.andi x v reducesTo_S16x2048x1024_S_d0_1_2 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S16x2048x1024 .f32) (main_arg3 : FVec F S16x2048 .f32) (main_arg4 : FVec F S16x2048x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x2048x1024 .f32 := Host.absf main_arg2
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Kernel.lean ====
abbrev S4096x1024 : Shape := ⟨2, ![4096, 1024]⟩
abbrev S16x2048x1024 : Shape := ⟨3, ![16, 2048, 1024]⟩
abbrev S16x2048 : Shape := ⟨2, ![16, 2048]⟩
abbrev S16x1024x2048 : Shape := ⟨3, ![16, 1024, 2048]⟩
abbrev S16x1x2048 : Shape := ⟨3, ![16, 1, 2048]⟩
abbrev S4096x16384 : Shape := ⟨2, ![4096, 16384]⟩
abbrev S256x1024 : Shape := ⟨2, ![256, 1024]⟩
abbrev S1x1024x2048 : Shape := ⟨3, ![1, 1024, 2048]⟩
abbrev S1x1x2048 : Shape := ⟨3, ![1, 1, 2048]⟩
abbrev S1024x2048 : Shape := ⟨2, ![1024, 2048]⟩
abbrev S2048 : Shape := ⟨1, ![2048]⟩
abbrev S256x2048 : Shape := ⟨2, ![256, 2048]⟩
abbrev S1x2048 : Shape := ⟨2, ![1, 2048]⟩
abbrev S4096x16x1024 : Shape := ⟨3, ![4096, 16, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x2048x1024, .f32⟩
  | .hbm, ⟨3, _⟩ => ⟨S16x2048, .f32⟩
  | .hbm, ⟨4, _⟩ => ⟨S16x2048x1024, .f32⟩
  | .hbm, ⟨5, _⟩ => ⟨S4096x1024, .bf16⟩
  | .hbm, ⟨6, _⟩ => ⟨S4096x1024, .bf16⟩
  | .hbm, ⟨7, _⟩ => ⟨S16x1024x2048, .f32⟩
  | .hbm, ⟨8, _⟩ => ⟨S16x1024x2048, .bf16⟩
  | .hbm, ⟨9, _⟩ => ⟨S16x1024x2048, .f32⟩
  | .hbm, ⟨10, _⟩ => ⟨S16x1024x2048, .bf16⟩
  | .hbm, ⟨11, _⟩ => ⟨S16x1x2048, .f32⟩
  | .hbm, ⟨12, _⟩ => ⟨S4096x16384, .f32⟩
  | .hbm, ⟨13, _⟩ => ⟨S4096x16384, .f32⟩
  | .hbm, ⟨14, _⟩ => ⟨S4096x16x1024, .f32⟩
  | .hbm, ⟨15, _⟩ => ⟨S4096x16x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x1x2048, .f32⟩
  | .local _ .vmem, ⟨9, _⟩ => ⟨S1x1x2048, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  transposes_S16x2048x1024_S16x1024x2048_0_2_1 : S16x2048x1024.Transposes [0, 2, 1] S16x1024x2048
  shapeCasts_S16x2048_S16x1x2048 : S16x2048.ShapeCasts S16x1x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  shapeCasts_S4096x16384_S4096x16x1024 : S4096x16384.ShapeCasts S4096x16x1024
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S16x1024x2048.size a
  hwx0_2 : ∀ i : grid0.Coords, EltTy.bits .bf16 = 32 ∨ (Rect.block (s := S16x1024x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S16x1024x2048.size a
  hwx0_3 : ∀ i : grid0.Coords, EltTy.bits .bf16 = 32 ∨ (Rect.block (s := S16x1024x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S16x1x2048.size a
  hwx0_4 : ∀ i : grid0.Coords, EltTy.bits .f32 = 32 ∨ (Rect.block (s := S16x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x16384.size a
  hwx0_5 : ∀ i : grid0.Coords, EltTy.bits .f32 = 32 ∨ (Rect.block (s := S4096x16384) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x16384.size a
  hwx0_6 : ∀ i : grid0.Coords, EltTy.bits .f32 = 32 ∨ (Rect.block (s := S4096x16384) S256x1024.size (cc0_transform_6 i) (hinb0_6 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S16x2048x1024 : Shape := ⟨3, ![16, 2048, 1024]⟩
abbrev S16x2048 : Shape := ⟨2, ![16, 2048]⟩
abbrev S4096x16x2048 : Shape := ⟨3, ![4096, 16, 2048]⟩
abbrev S1x16x2048 : Shape := ⟨3, ![1, 16, 2048]⟩
abbrev S4096x16x1024 : Shape := ⟨3, ![4096, 16, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x2048x1024, .f32⟩
  | .hbm, ⟨3, _⟩ => ⟨S16x2048, .f32⟩
  | .hbm, ⟨4, _⟩ => ⟨S16x2048x1024, .f32⟩
  | .hbm, ⟨5, _⟩ => ⟨S4096x16x2048, .f32⟩
  | .hbm, ⟨6, _⟩ => ⟨S4096x16x2048, .f32⟩
  | .hbm, ⟨7, _⟩ => ⟨S4096x16x2048, .f32⟩
  | .hbm, ⟨8, _⟩ => ⟨S1x16x2048, .f32⟩
  | .hbm, ⟨9, _⟩ => ⟨S4096x16x2048, .f32⟩
  | .hbm, ⟨10, _⟩ => ⟨S4096x16x2048, .f32⟩
  | .hbm, ⟨11, _⟩ => ⟨S4096x16x1024, .f32⟩
  | .hbm, ⟨12, _⟩ => ⟨S4096x16x1024, .f32⟩
  | .hbm, ⟨13, _⟩ => ⟨S4096x16x1024, .f32⟩
  | .hbm, ⟨14, _⟩ => ⟨S4096x16x1024, .f32⟩
  | .hbm, ⟨15, _⟩ => ⟨S4096x16x1024, .f32⟩
  | .hbm, ⟨16, _⟩ => ⟨S_, .f32⟩
  | .hbm, ⟨17, _⟩ => ⟨S4096x16x1024, .f32⟩
  | .hbm, ⟨18, _⟩ => ⟨S4096x16x1024, .f32⟩
  | .hbm, ⟨19, _⟩ => ⟨S_, .f32⟩
  | .hbm, ⟨20, _⟩ => ⟨S4096x16x1024, .f32⟩
  | .hbm, ⟨21, _⟩ => ⟨S4096x16x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S16x2048_S1x16x2048_1_2 : S16x2048.BroadcastsInDim S1x16x2048 (![1, 2] : Fin 2 → Fin S1x16x2048.rank)
  bcast_S1x16x2048_S4096x16x2048_0_1_2 : S1x16x2048.BroadcastsInDim S4096x16x2048 (![0, 1, 2] : Fin 3 → Fin S4096x16x2048.rank)
  slices_S4096x16x2048_S4096x16x1024_0_0_0 : S4096x16x2048.Slices ![0, 0, 0] S4096x16x1024
  slices_S4096x16x2048_S4096x16x1024_0_0_1024 : S4096x16x2048.Slices ![0, 0, 1024] S4096x16x1024
  bcast_S_S4096x16x1024 : S_.BroadcastsInDim S4096x16x1024 (![] : Fin 0 → Fin S4096x16x1024.rank)
  dot_S4096x1024_S16x2048x1024_S4096x16x2048_1_2_0_01_n_n_wf : DotDims.WF S4096x1024 S16x2048x1024 S4096x16x2048 [1] [2] [0] [0, 1] [] []

variable [Facts₀]

def dot_S4096x1024_S16x2048x1024_S4096x16x2048_1_2_0_01_n_n : DotDims S4096x1024 S16x2048x1024 S4096x16x2048 where
  lhsContracting := [1]
  rhsContracting := [2]
  lhsNonContracting := [0]
  rhsNonContracting := [0, 1]
  lhsBatch := []
  rhsBatch := []
  wf := dot_S4096x1024_S16x2048x1024_S4096x16x2048_1_2_0_01_n_n_wf

class Facts : Prop extends Facts₀ where

variable [Facts]
-- ==== Proof.GateSpec.lean ====
/-
  The two results of the gated cell layer, as functions of the five argument arrays on the extended reals.

  For a batch row `b`, a cell `c` and an output unit `o < 2048` the pre-activation is

      net b c o = (Σ_k x[b,k] · Wx[c,o,k] + Σ_k h[b,k] · Wh[c,o,k]) + bx[c,o],

  the two inner products added first and the bias last. The input gate is the logistic function of the first 1024 units of
  each cell, the cell input the hyperbolic tangent of the last 1024. Both are stated once on the `[4096, 16, 1024]` result
  shape and once on the lane-flattened `[4096, 16384]` shape, where column `j` is unit `j % 1024` of cell `j / 1024`.
-/
import Idealize.ShloMosaic.PureOps.Ideal
import Idealize.ShloMosaic.Lib.ValueIdx

noncomputable section

namespace Cert.GateCells

open Idealize.ShloMosaic Idealize.ShloMosaic.ValueIdx
open scoped BigOperators

/-- A `[4096, 1024]` array of extended reals: the input words, or the hidden states, one row per batch element. -/
abbrev Rows : Type := (⟨2, ![4096, 1024]⟩ : Shape).Idx → EReal
/-- A `[16, 2048, 1024]` array: per cell, a `2048 × 1024` weight matrix. -/
abbrev Weights : Type := (⟨3, ![16, 2048, 1024]⟩ : Shape).Idx → EReal
/-- A `[16, 2048]` array: per cell, a bias vector. -/
abbrev Biases : Type := (⟨2, ![16, 2048]⟩ : Shape).Idx → EReal

/-- The pre-activation of unit `o` of cell `c` on batch row `b`: the two inner products, added, then the bias. -/
def net (x h : Rows) (wx : Weights) (bx : Biases) (wh : Weights) (b : Fin 4096) (c : Fin 16) (o : Fin 2048) : EReal :=
  ((∑ k : Fin 1024, x (ix2 b k) * wx (ix3 c o k)) + ∑ k : Fin 1024, h (ix2 b k) * wh (ix3 c o k)) + bx (ix2 c o)

/-- Unit `q` of the first half of a cell's 2048 units. -/
def lo (q : Fin 1024) : Fin 2048 := ⟨q.val, by omega⟩
/-- Unit `q` of the second half. -/
def hi (q : Fin 1024) : Fin 2048 := ⟨1024 + q.val, by omega⟩

/-- The pre-activation depends on the three coordinates through their values only. -/
theorem net_congr (x h : Rows) (wx : Weights) (bx : Biases) (wh : Weights) {b b' : Fin 4096} {c c' : Fin 16} {o o' : Fin 2048}
    (hb : b.val = b'.val) (hc : c.val = c'.val) (ho : o.val = o'.val) : net x h wx bx wh b c o = net x h wx bx wh b' c' o' := by
  obtain rfl : b = b' := Fin.ext hb
  obtain rfl : c = c' := Fin.ext hc
  obtain rfl : o = o' := Fin.ext ho
  rfl

/-- The input gate on the result shape: the logistic function of the first-half pre-activations. -/
def gate (x h : Rows) (wx : Weights) (bx : Biases) (wh : Weights) : (⟨3, ![4096, 16, 1024]⟩ : Shape).Idx → EReal :=
  fun i => Ideal.logistic (net x h wx bx wh (i 0) (i 1) (lo (i 2)))

/-- The cell input on the result shape: the hyperbolic tangent of the second-half pre-activations. -/
def cell (x h : Rows) (wx : Weights) (bx : Biases) (wh : Weights) : (⟨3, ![4096, 16, 1024]⟩ : Shape).Idx → EReal :=
  fun i => Ideal.tanh (net x h wx bx wh (i 0) (i 1) (hi (i 2)))

/-- The cell a column of the lane-flattened shape belongs to. -/
def cellOf (j : Fin 16384) : Fin 16 := ⟨j.val / 1024, by omega⟩
/-- The unit within its cell. -/
def unitOf (j : Fin 16384) : Fin 1024 := ⟨j.val % 1024, by omega⟩

/-- The input gate on the lane-flattened shape. -/
def gateFlat (x h : Rows) (wx : Weights) (bx : Biases) (wh : Weights) : (⟨2, ![4096, 16384]⟩ : Shape).Idx → EReal :=
  fun i => Ideal.logistic (net x h wx bx wh (i 0) (cellOf (i 1)) (lo (unitOf (i 1))))

/-- The cell input on the lane-flattened shape. -/
def cellFlat (x h : Rows) (wx : Weights) (bx : Biases) (wh : Weights) : (⟨2, ![4096, 16384]⟩ : Shape).Idx → EReal :=
  fun i => Ideal.tanh (net x h wx bx wh (i 0) (cellOf (i 1)) (hi (unitOf (i 1))))

end Cert.GateCells

end
-- ==== Proof.RefIsSpec.lean ====
/-
  The reference computes the specification.

  The reference contracts the input words with each cell's weight matrix along the matrix's last axis, does the same with
  the hidden states, adds the two, adds the bias spread over the batch, cuts the 2048 units of each cell into two halves,
  and applies `tanh` to the second half and `1 / (1 + exp (-·))` to the first. Read at an index, the sum before the cut
  is the pre-activation `net`; on the extended reals `1 / (1 + exp (-z))` is the logistic function by definition, the
  word `0x3F800000` being the number one.
-/
import proofs.«148823_j78735340470740_2_alg».proof.Proof.Gen.ReferenceIdeal.Read
import proofs.«148823_j78735340470740_2_alg».proof.Proof.GateSpec
import Idealize.ShloMosaic.Lib.IdealHost

noncomputable section

namespace Cert.ReferenceIdeal.RefValue

open Cert.ReferenceIdeal Cert.ReferenceIdeal.Gen Cert.ReferenceIdeal.Read Cert.GateCells
open Idealize.ShloMosaic Idealize.ShloMosaic.ValueIdx
open scoped BigOperators

/-- The sum before the cut, at batch row `i 0`, cell `i 1`, unit `i 2`, is the pre-activation. -/
theorem preact_apply (x0 x1 : Rows) (x2 : Weights) (x3 : Biases) (x4 : Weights) (i : S4096x16x2048.Idx) :
    val_main_v5 (F := Ideal) x0 x1 x2 x3 x4 i = net x0 x1 x2 x3 x4 (i 0) (i 1) (i 2) := by
  have el0 : ∀ k : Fin 1024, lidx_main_v0 i k = ix2 (i 0) k := fun k => funext fun a => Fin.ext (by
    match a with | ⟨0, _⟩ => rfl | ⟨1, _⟩ => rfl)
  have er0 : ∀ k : Fin 1024, ridx_main_v0 i k = ix3 (i 1) (i 2) k := fun k => funext fun a => Fin.ext (by
    match a with | ⟨0, _⟩ => rfl | ⟨1, _⟩ => rfl | ⟨2, _⟩ => rfl)
  have el1 : ∀ k : Fin 1024, lidx_main_v1 i k = ix2 (i 0) k := fun k => funext fun a => Fin.ext (by
    match a with | ⟨0, _⟩ => rfl | ⟨1, _⟩ => rfl)
  have er1 : ∀ k : Fin 1024, ridx_main_v1 i k = ix3 (i 1) (i 2) k := fun k => funext fun a => Fin.ext (by
    match a with | ⟨0, _⟩ => rfl | ⟨1, _⟩ => rfl | ⟨2, _⟩ => rfl)
  have eb : idx_main_v3 (idx_main_v4 i) = ix2 (i 1) (i 2) := funext fun a => Fin.ext (by
    match a with | ⟨0, _⟩ => rfl | ⟨1, _⟩ => rfl)
  rw [val_main_v5_apply, val_main_v2_apply, val_main_v0_apply, val_main_v1_apply, val_main_v4_apply, val_main_v3_apply]
  simp only [el0, er0, el1, er1, eb]
  rfl

/-- The reference's first result, the cell input, is `tanh` of the second-half pre-activations. -/
theorem cell_eq (x0 x1 : Rows) (x2 : Weights) (x3 : Biases) (x4 : Weights) :
    val_main_v8 (F := Ideal) x0 x1 x2 x3 x4 = cell x0 x1 x2 x3 x4 := by
  funext i
  rw [val_main_v8_apply, val_main_v7_apply, preact_apply]
  show Ideal.tanh _ = Ideal.tanh _
  exact congrArg Ideal.tanh (net_congr x0 x1 x2 x3 x4 rfl rfl rfl)

/-- The reference's second result, the input gate, is the logistic function of the first-half pre-activations: its
    quotient `1 / (1 + exp (-z))` is that function's definition on the extended reals. -/
theorem gate_eq (x0 x1 : Rows) (x2 : Weights) (x3 : Biases) (x4 : Weights) :
    val_main_v14 (F := Ideal) x0 x1 x2 x3 x4 = gate x0 x1 x2 x3 x4 := by
  funext i
  rw [val_main_v14_apply, val_main_v13_apply, val_main_cst_0_apply, val_main_v12_apply, val_main_v11_apply,
    val_main_cst_apply, val_main_v10_apply, val_main_v9_apply, val_main_v6_apply, preact_apply]
  show Ideal.div (Ideal.ofBits .f32 0x3F800000#32) (Ideal.ofBits .f32 0x3F800000#32 + Ideal.exp (-_)) = Ideal.logistic _
  rw [Ideal.ofBits_one_f32]
  unfold Ideal.logistic
  exact congrArg (fun z => Ideal.div 1 (1 + Ideal.exp (-z))) (net_congr x0 x1 x2 x3 x4 rfl rfl rfl)

end Cert.ReferenceIdeal.RefValue

end
-- ==== Proof.EntryArrays.lean ====
/-
  The five arrays the kernel's windows read, as the region finds them, in terms of the program's arguments.

  Before the region the program narrows the input words and the hidden states to bf16 (the identity on the extended
  reals), transposes each cell's weight matrix so that the contraction axis comes first and narrows it likewise, and gives
  the bias a unit middle axis. So the region finds: the words and the states themselves; the weights with their last two
  coordinates exchanged; the bias at `(c, 0, o)` where the argument has `(c, o)`.
-/
import proofs.«148823_j78735340470740_2_alg».proof.Proof.Gen.KernelIdeal.Frame
import Idealize.ShloMosaic.Lib.StableHlo.Run
import Idealize.ShloMosaic.Lib.Pipeline.Value
import Idealize.ShloMosaic.Lib.ValueLayout

noncomputable section

namespace Cert.KernelIdeal.Entry

open Cert.KernelIdeal Cert.KernelIdeal.Gen
open Idealize.ShloMosaic Idealize.ShloMosaic.TcCoe Idealize.ShloMosaic.StableHlo Idealize.SL.Sem Idealize.ShloMosaic.ValueIdx

variable (m : (ℓ : Loc nD τ sig) → Buf (Elt Ideal) ℓ)

/-- The narrowed input words are the input words. -/
theorem words (c : Dev nD) : (V m c main_v0 : S4096x1024.Idx → EReal) = m ((c : Thread nD τ).loc main_arg0) := by
  show StableHlo.after hostOps0 (fun b => m (c, b)) (Proc.devRef .tc main_v0) = _
  after_results
  rfl

/-- The narrowed hidden states are the hidden states. -/
theorem states (c : Dev nD) : (V m c main_v1 : S4096x1024.Idx → EReal) = m ((c : Thread nD τ).loc main_arg1) := by
  show StableHlo.after hostOps0 (fun b => m (c, b)) (Proc.devRef .tc main_v1) = _
  after_results
  rfl

/-- The transposed input weights at `(cell, d, o)` are the argument at `(cell, o, d)`. -/
theorem wordWeights (c : Dev nD) (cc : Fin 16) (d : Fin 1024) (o : Fin 2048) :
    (V m c main_v3 : S16x1024x2048.Idx → EReal) (ix3 cc d o)
      = (m ((c : Thread nD τ).loc main_arg2) : S16x2048x1024.Idx → EReal) (ix3 cc o d) := by
  have e : (V m c main_v3 : S16x1024x2048.Idx → EReal)
      = transpose S16x1024x2048 [0, 2, 1] (m ((c : Thread nD τ).loc main_arg2) : S16x2048x1024.Idx → EReal)
          transposes_S16x2048x1024_S16x1024x2048_0_2_1 := by
    show StableHlo.after hostOps0 (fun b => m (c, b)) (Proc.devRef .tc main_v3) = _
    after_results
    rfl
  rw [e]
  exact transpose_ix3_021_apply _ _ cc d o

/-- The transposed hidden weights at `(cell, d, o)` are the argument at `(cell, o, d)`. -/
theorem stateWeights (c : Dev nD) (cc : Fin 16) (d : Fin 1024) (o : Fin 2048) :
    (V m c main_v5 : S16x1024x2048.Idx → EReal) (ix3 cc d o)
      = (m ((c : Thread nD τ).loc main_arg4) : S16x2048x1024.Idx → EReal) (ix3 cc o d) := by
  have e : (V m c main_v5 : S16x1024x2048.Idx → EReal)
      = transpose S16x1024x2048 [0, 2, 1] (m ((c : Thread nD τ).loc main_arg4) : S16x2048x1024.Idx → EReal)
          transposes_S16x2048x1024_S16x1024x2048_0_2_1 := by
    show StableHlo.after hostOps0 (fun b => m (c, b)) (Proc.devRef .tc main_v5) = _
    after_results
    rfl
  rw [e]
  exact transpose_ix3_021_apply _ _ cc d o

/-- The bias with its unit middle axis, at `(cell, 0, o)`, is the argument at `(cell, o)`. -/
theorem bias (c : Dev nD) (cc : Fin 16) (u : Fin 1) (o : Fin 2048) :
    (V m c main_v6 : S16x1x2048.Idx → EReal) (ix3 cc u o)
      = (m ((c : Thread nD τ).loc main_arg3) : S16x2048.Idx → EReal) (ix2 cc o) := by
  have e : (V m c main_v6 : S16x1x2048.Idx → EReal)
      = shapeCast S16x1x2048 (m ((c : Thread nD τ).loc main_arg3) : S16x2048.Idx → EReal) shapeCasts_S16x2048_S16x1x2048 := by
    show StableHlo.after hostOps0 (fun b => m (c, b)) (Proc.devRef .tc main_v6) = _
    after_results
    rfl
  rw [e]
  exact shapeCast_apply _ _ _ _ (by
    have hu : u.val = 0 := by omega
    show (S16x2048.rowMajor (ix2 cc o)).val = (S16x1x2048.rowMajor (ix3 cc u o)).val
    rw [Shape.rowMajor_val_two, Shape.rowMajor_val_three]
    show cc.val * 2048 + o.val = (cc.val * 1 + u.val) * 2048 + o.val
    rw [hu]; omega)

end Cert.KernelIdeal.Entry

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.BodyAtIndex.lean ====
/-
  What the kernel body computes on one block, read at an index.

  The body holds a `[256, 1024]` block of input words and one of hidden states, a cell's two `[1, 1024, 2048]` weight
  blocks (already transposed: contraction axis first) and its `[1, 1, 2048]` bias row. It multiplies each row block with
  its weight block into a zero accumulator, adds the two products, adds the bias row spread over the 256 rows, and stores
  the logistic function of columns `0 … 1023` and `tanh` of columns `1024 … 2047`. On the extended reals a product into the
  zero accumulator is the plain inner product, so at row `p` and column `q` the sum before the two activations is

      (Σ_d x[p,d] · wx[0,d,q] + Σ_d h[p,d] · wh[0,d,q]) + bias[0,0,q].
-/
import proofs.«148823_j78735340470740_2_alg».proof.Proof.Gen.KernelIdeal.Skeleton
import proofs.«148823_j78735340470740_2_alg».proof.Proof.LibInnerProducts
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx
open scoped BigOperators

/-- The number-of-elements record of the body's two products is the plain one: rows by columns, no batch axis. -/
theorem dims_plain : dot_S256x1024_S1024x2048_S256x2048_1_0_0_1_n_n = DotDims.plain 256 1024 2048 := rfl

/-- A `[1, 1, n]` row recast to a vector `[n]`, then to a row `[1, n]`, then spread over `a` rows, reads at `(p, q)` the
    row's entry `q`. -/
theorem spread_row_apply {a n : ℕ} {α : Type} (v : (⟨3, ![1, 1, n]⟩ : Shape).Idx → α)
    (h1 : (⟨3, ![1, 1, n]⟩ : Shape).ShapeCasts ⟨1, ![n]⟩) (h2 : (⟨1, ![n]⟩ : Shape).ShapeCasts ⟨2, ![1, n]⟩)
    (h3 : (⟨2, ![1, n]⟩ : Shape).Broadcasts ⟨2, ![a, n]⟩) (p : Fin a) (q : Fin n) :
    broadcastTo ⟨2, ![a, n]⟩ (shapeCast ⟨2, ![1, n]⟩ (shapeCast ⟨1, ![n]⟩ v h1) h2) h3 (ix2 p q)
      = v (ix3 (0 : Fin 1) (0 : Fin 1) q) := by
  rw [broadcastTo_1b_ab_apply, shapeCast_a_1a_apply]
  exact shapeCast_apply v h1 _ _ (by
    rw [Shape.rowMajor_val_three, Shape.rowMajor_val_one]
    show (0 * 1 + 0) * n + q.val = q.val
    omega)

variable (x0 x1 : Vec Ideal S256x1024 .bf16) (x2 x3 : Vec Ideal S1x1024x2048 .bf16) (x4 : Vec Ideal S1x1x2048 .f32)

/-- The sum before the activations, at row `p` and column `q` of the block. -/
theorem preact_apply (p : Fin 256) (q : Fin 2048) :
    k0_pay1 x0 x1 x2 x3 x4 (ix2 p q)
      = ((∑ d : Fin 1024, x0 (ix2 p d) * x2 (ix3 (0 : Fin 1) d q)) + ∑ d : Fin 1024, x1 (ix2 p d) * x3 (ix3 (0 : Fin 1) d q))
        + x4 (ix3 (0 : Fin 1) (0 : Fin 1) q) := by
  unfold k0_pay1
  rw [addf_apply, addf_apply, spread_row_apply,
    InnerProducts.matmul_zero_apply _ dims_plain, InnerProducts.matmul_zero_apply _ dims_plain]
  simp only [shapeCast_self, shapeCast_1ab_ab_apply]

/-- The first stored block: the logistic function of the first 1024 columns. -/
theorem gate_apply (p : Fin 256) (q : Fin 1024) (q' : Fin 2048) (hq : q'.val = q.val) :
    k0_pay2 x0 x1 x2 x3 x4 (ix2 p q) = Ideal.logistic (k0_pay1 x0 x1 x2 x3 x4 (ix2 p q')) := by
  unfold k0_pay2
  show Ideal.logistic _ = _
  exact congrArg Ideal.logistic (slice2_axis1_apply 0 _ _ p q q' (by omega))

/-- The second stored block: `tanh` of the last 1024 columns. -/
theorem cell_apply (p : Fin 256) (q : Fin 1024) (q' : Fin 2048) (hq : q'.val = 1024 + q.val) :
    k0_pay3 x0 x1 x2 x3 x4 (ix2 p q) = Ideal.tanh (k0_pay1 x0 x1 x2 x3 x4 (ix2 p q')) := by
  unfold k0_pay3
  show Ideal.tanh _ = _
  exact congrArg Ideal.tanh (slice2_axis1_apply 1024 _ _ p q q' hq)

end Cert.KernelIdeal.Body

end
-- ==== Proof.BlockReads.lean ====
/-
  The blocks the body is run on at a grid point, and what it stores there, in terms of the program's arguments.

  The grid is 16 cells by 16 batch tiles, the batch tile the fast coordinate: point `t` works on cell `t / 16` and batch
  tile `t % 16`. Its words and states blocks are rows `256 · (t % 16) … + 255` of the two `[4096, 1024]` arrays, its two
  weight blocks and its bias row are cell `t / 16`'s, and its two output blocks are rows `256 · (t % 16) …`, columns
  `1024 · (t / 16) …` of the lane-flattened results. With the region-entry arrays read back to the arguments, the sum the
  body forms at row `p`, column `q` of its block is the pre-activation `net` at batch row `256 · (t % 16) + p`, cell `t / 16`,
  unit `q`.
-/
import proofs.«148823_j78735340470740_2_alg».proof.Proof.EntryArrays
import proofs.«148823_j78735340470740_2_alg».proof.Proof.BodyAtIndex
import proofs.«148823_j78735340470740_2_alg».proof.Proof.GateSpec

noncomputable section

namespace Cert.KernelIdeal.Blocks

open Cert.KernelIdeal Cert.KernelIdeal.Gen Cert.GateCells
open Idealize.ShloMosaic Idealize.ShloMosaic.TcCoe Idealize.SL.Sem Idealize.ShloMosaic.ValueIdx
open scoped BigOperators

variable (m : (ℓ : Loc nD τ sig) → Buf (Elt Ideal) ℓ)

/-- The block index of each window at each of the 256 points, decided over the grid: batch tile `t % 16`, cell `t / 16`. -/
theorem index_facts : ∀ t : Fin cfg0.N,
    win0_0.index t (0 : Fin 2) = t.val % 16 ∧ win0_0.index t (1 : Fin 2) = 0
    ∧ win0_1.index t (0 : Fin 2) = t.val % 16 ∧ win0_1.index t (1 : Fin 2) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0
    ∧ win0_5.index t (0 : Fin 2) = t.val % 16 ∧ win0_5.index t (1 : Fin 2) = t.val / 16
    ∧ win0_6.index t (0 : Fin 2) = t.val % 16 ∧ win0_6.index t (1 : Fin 2) = t.val / 16 :=
  (by decide +kernel : ∀ t : Fin grid0.N, _)

/-- The words block at point `t`, row `p`: batch row `256 · (t % 16) + p` of the input words. -/
theorem words_block (c : Dev nD) (t : Fin cfg0.N) (p : Fin 256) (d : Fin 1024) (b : Fin 4096)
    (hb : b.val = 256 * (t.val % 16) + p.val) :
    (iblk m c 0 t : Vec Ideal S256x1024 .bf16) (ix2 p d)
      = (m ((c : Thread nD τ).loc main_arg0) : S4096x1024.Idx → EReal) (ix2 b d) := by
  obtain ⟨e0, e1, -⟩ := index_facts t
  unfold iblk
  rw [View.read_apply]
  show (V m c main_v0 : S4096x1024.Idx → EReal) _ = _
  rw [Entry.words]
  congr 1
  funext a
  apply Fin.ext
  match a with
  | ⟨0, _⟩ => show win0_0.index t (0 : Fin 2) * 256 + 1 * p.val = b.val; rw [e0, hb]; omega
  | ⟨1, _⟩ => show win0_0.index t (1 : Fin 2) * 1024 + 1 * d.val = d.val; rw [e1]; omega

/-- The states block at point `t`, row `p`: batch row `256 · (t % 16) + p` of the hidden states. -/
theorem states_block (c : Dev nD) (t : Fin cfg0.N) (p : Fin 256) (d : Fin 1024) (b : Fin 4096)
    (hb : b.val = 256 * (t.val % 16) + p.val) :
    (iblk m c 1 t : Vec Ideal S256x1024 .bf16) (ix2 p d)
      = (m ((c : Thread nD τ).loc main_arg1) : S4096x1024.Idx → EReal) (ix2 b d) := by
  obtain ⟨-, -, e0, e1, -⟩ := index_facts t
  unfold iblk
  rw [View.read_apply]
  show (V m c main_v1 : S4096x1024.Idx → EReal) _ = _
  rw [Entry.states]
  congr 1
  funext a
  apply Fin.ext
  match a with
  | ⟨0, _⟩ => show win0_1.index t (0 : Fin 2) * 256 + 1 * p.val = b.val; rw [e0, hb]; omega
  | ⟨1, _⟩ => show win0_1.index t (1 : Fin 2) * 1024 + 1 * d.val = d.val; rw [e1]; omega

/-- The input-weight block at point `t` is cell `t / 16`'s matrix, transposed. -/
theorem wordWeights_block (c : Dev nD) (t : Fin cfg0.N) (u : Fin 1) (d : Fin 1024) (o : Fin 2048) (cc : Fin 16)
    (hc : cc.val = t.val / 16) :
    (iblk m c 2 t : Vec Ideal S1x1024x2048 .bf16) (ix3 u d o)
      = (m ((c : Thread nD τ).loc main_arg2) : S16x2048x1024.Idx → EReal) (ix3 cc o d) := by
  obtain ⟨-, -, -, -, e0, e1, e2, -⟩ := index_facts t
  unfold iblk
  rw [View.read_apply]
  show (V m c main_v3 : S16x1024x2048.Idx → EReal) _ = _
  refine (congrArg (V m c main_v3 : S16x1024x2048.Idx → EReal) (?_ : _ = ix3 cc d o)).trans (Entry.wordWeights m c cc d o)
  funext a
  apply Fin.ext
  have hu : u.val = 0 := by omega
  match a with
  | ⟨0, _⟩ => show win0_2.index t (0 : Fin 3) * 1 + 1 * u.val = cc.val; rw [e0, hc, hu]; omega
  | ⟨1, _⟩ => show win0_2.index t (1 : Fin 3) * 1024 + 1 * d.val = d.val; rw [e1]; omega
  | ⟨2, _⟩ => show win0_2.index t (2 : Fin 3) * 2048 + 1 * o.val = o.val; rw [e2]; omega

/-- The hidden-weight block at point `t` is cell `t / 16`'s matrix, transposed. -/
theorem stateWeights_block (c : Dev nD) (t : Fin cfg0.N) (u : Fin 1) (d : Fin 1024) (o : Fin 2048) (cc : Fin 16)
    (hc : cc.val = t.val / 16) :
    (iblk m c 3 t : Vec Ideal S1x1024x2048 .bf16) (ix3 u d o)
      = (m ((c : Thread nD τ).loc main_arg4) : S16x2048x1024.Idx → EReal) (ix3 cc o d) := by
  obtain ⟨-, -, -, -, -, -, -, e0, e1, e2, -⟩ := index_facts t
  unfold iblk
  rw [View.read_apply]
  show (V m c main_v5 : S16x1024x2048.Idx → EReal) _ = _
  refine (congrArg (V m c main_v5 : S16x1024x2048.Idx → EReal) (?_ : _ = ix3 cc d o)).trans (Entry.stateWeights m c cc d o)
  funext a
  apply Fin.ext
  have hu : u.val = 0 := by omega
  match a with
  | ⟨0, _⟩ => show win0_3.index t (0 : Fin 3) * 1 + 1 * u.val = cc.val; rw [e0, hc, hu]; omega
  | ⟨1, _⟩ => show win0_3.index t (1 : Fin 3) * 1024 + 1 * d.val = d.val; rw [e1]; omega
  | ⟨2, _⟩ => show win0_3.index t (2 : Fin 3) * 2048 + 1 * o.val = o.val; rw [e2]; omega

/-- The bias row at point `t` is cell `t / 16`'s. -/
theorem bias_block (c : Dev nD) (t : Fin cfg0.N) (u u' : Fin 1) (o : Fin 2048) (cc : Fin 16) (hc : cc.val = t.val / 16) :
    (iblk m c 4 t : Vec Ideal S1x1x2048 .f32) (ix3 u u' o)
      = (m ((c : Thread nD τ).loc main_arg3) : S16x2048.Idx → EReal) (ix2 cc o) := by
  obtain ⟨-, -, -, -, -, -, -, -, -, -, e0, e1, e2, -⟩ := index_facts t
  unfold iblk
  rw [View.read_apply]
  show (V m c main_v6 : S16x1x2048.Idx → EReal) _ = _
  refine (congrArg (V m c main_v6 : S16x1x2048.Idx → EReal) (?_ : _ = ix3 cc u' o)).trans (Entry.bias m c cc u' o)
  funext a
  apply Fin.ext
  have hu : u.val = 0 := by omega
  have hu' : u'.val = 0 := by omega
  match a with
  | ⟨0, _⟩ => show win0_4.index t (0 : Fin 3) * 1 + 1 * u.val = cc.val; rw [e0, hc, hu]; omega
  | ⟨1, _⟩ => show win0_4.index t (1 : Fin 3) * 1 + 1 * u'.val = u'.val; rw [e1]; omega
  | ⟨2, _⟩ => show win0_4.index t (2 : Fin 3) * 2048 + 1 * o.val = o.val; rw [e2]; omega

/-- The sum the body forms at point `t`, row `p`, column `q`, is the pre-activation at batch row `256 · (t % 16) + p`,
    cell `t / 16`, unit `q`. -/
theorem preact_block (c : Dev nD) (t : Fin cfg0.N) (p : Fin 256) (q : Fin 2048) (b : Fin 4096) (cc : Fin 16)
    (hb : b.val = 256 * (t.val % 16) + p.val) (hc : cc.val = t.val / 16) :
    k0_pay1 (iblk m c 0 t) (iblk m c 1 t) (iblk m c 2 t) (iblk m c 3 t) (iblk m c 4 t) (ix2 p q)
      = net (m ((c : Thread nD τ).loc main_arg0)) (m ((c : Thread nD τ).loc main_arg1)) (m ((c : Thread nD τ).loc main_arg2))
          (m ((c : Thread nD τ).loc main_arg3)) (m ((c : Thread nD τ).loc main_arg4)) b cc q := by
  refine (Body.preact_apply _ _ _ _ _ p q).trans ?_
  unfold net
  refine congrArg₂ (· + ·) (congrArg₂ (· + ·) (Finset.sum_congr rfl fun d _ => ?_) (Finset.sum_congr rfl fun d _ => ?_)) ?_
  · exact congrArg₂ (· * ·) (words_block m c t p d b hb) (wordWeights_block m c t 0 d q cc hc)
  · exact congrArg₂ (· * ·) (states_block m c t p d b hb) (stateWeights_block m c t 0 d q cc hc)
  · exact bias_block m c t 0 0 q cc hc

/-- What point `t` stores in its first output block: the input gate. -/
theorem gate_block (c : Dev nD) (t : Fin cfg0.N) (p : Fin 256) (q : Fin 1024) (b : Fin 4096) (cc : Fin 16)
    (hb : b.val = 256 * (t.val % 16) + p.val) (hc : cc.val = t.val / 16) :
    k0_pay2 (iblk m c 0 t) (iblk m c 1 t) (iblk m c 2 t) (iblk m c 3 t) (iblk m c 4 t) (ix2 p q)
      = Ideal.logistic (net (m ((c : Thread nD τ).loc main_arg0)) (m ((c : Thread nD τ).loc main_arg1))
          (m ((c : Thread nD τ).loc main_arg2)) (m ((c : Thread nD τ).loc main_arg3)) (m ((c : Thread nD τ).loc main_arg4))
          b cc (lo q)) :=
  (Body.gate_apply _ _ _ _ _ p q (lo q) rfl).trans (congrArg Ideal.logistic (preact_block m c t p (lo q) b cc hb hc))

/-- What point `t` stores in its second output block: the cell input. -/
theorem cell_block (c : Dev nD) (t : Fin cfg0.N) (p : Fin 256) (q : Fin 1024) (b : Fin 4096) (cc : Fin 16)
    (hb : b.val = 256 * (t.val % 16) + p.val) (hc : cc.val = t.val / 16) :
    k0_pay3 (iblk m c 0 t) (iblk m c 1 t) (iblk m c 2 t) (iblk m c 3 t) (iblk m c 4 t) (ix2 p q)
      = Ideal.tanh (net (m ((c : Thread nD τ).loc main_arg0)) (m ((c : Thread nD τ).loc main_arg1))
          (m ((c : Thread nD τ).loc main_arg2)) (m ((c : Thread nD τ).loc main_arg3)) (m ((c : Thread nD τ).loc main_arg4))
          b cc (hi q)) :=
  (Body.cell_apply _ _ _ _ _ p q (hi q) rfl).trans (congrArg Ideal.tanh (preact_block m c t p (hi q) b cc hb hc))

end Cert.KernelIdeal.Blocks

end
-- ==== Proof.FinalArrays.lean ====
/-
  The two lane-flattened result arrays after the region.

  Every grid point writes back both of its output blocks, block `(t % 16, t / 16)` of each `[4096, 16384]` array, and what it
  writes is that block of ONE whole-array function: the input gate, respectively the cell input, on the lane-flattened
  shape. The 256 blocks tile the array (row `r`, column `j` lies in the block of point `16 · (j / 1024) + r / 256`), so after
  the region each array is that function.
-/
import proofs.«148823_j78735340470740_2_alg».proof.Proof.BlockReads

noncomputable section

namespace Cert.KernelIdeal.Final

open Cert.KernelIdeal Cert.KernelIdeal.Gen Cert.KernelIdeal.Blocks Cert.GateCells
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The input gate on the lane-flattened shape, of the program's arguments on core `c`. -/
abbrev gateArr (c : Dev nD) : S4096x16384.Idx → EReal :=
  gateFlat (m ((c : Thread nD τ).loc main_arg0)) (m ((c : Thread nD τ).loc main_arg1)) (m ((c : Thread nD τ).loc main_arg2))
    (m ((c : Thread nD τ).loc main_arg3)) (m ((c : Thread nD τ).loc main_arg4))

/-- The cell input on the lane-flattened shape, of the program's arguments on core `c`. -/
abbrev cellArr (c : Dev nD) : S4096x16384.Idx → EReal :=
  cellFlat (m ((c : Thread nD τ).loc main_arg0)) (m ((c : Thread nD τ).loc main_arg1)) (m ((c : Thread nD τ).loc main_arg2))
    (m ((c : Thread nD τ).loc main_arg3)) (m ((c : Thread nD τ).loc main_arg4))

/-- What point `t` stores at row `p`, column `q` of its first output block is the lane-flattened gate at any index `i` of
    the array with row `256 · (t % 16) + p` and column `1024 · (t / 16) + q`. -/
theorem gate_at (c : Dev nD) (t : Fin cfg0.N) (p : Fin 256) (q : Fin 1024) (i : S4096x16384.Idx)
    (h0 : (i 0).val = 256 * (t.val % 16) + p.val) (h1 : (i 1).val = 1024 * (t.val / 16) + q.val) :
    k0_pay2 (iblk m c 0 t) (iblk m c 1 t) (iblk m c 2 t) (iblk m c 3 t) (iblk m c 4 t) (ix2 p q) = gateArr m c i := by
  have hq := q.isLt
  exact (gate_block m c t p q (i 0) (cellOf (i 1)) h0 (by show (i 1).val / 1024 = _; omega)).trans
    (congrArg Ideal.logistic (net_congr _ _ _ _ _ rfl rfl (by show q.val = (i 1).val % 1024; omega)))

/-- The same for the second output block and the lane-flattened cell input. -/
theorem cell_at (c : Dev nD) (t : Fin cfg0.N) (p : Fin 256) (q : Fin 1024) (i : S4096x16384.Idx)
    (h0 : (i 0).val = 256 * (t.val % 16) + p.val) (h1 : (i 1).val = 1024 * (t.val / 16) + q.val) :
    k0_pay3 (iblk m c 0 t) (iblk m c 1 t) (iblk m c 2 t) (iblk m c 3 t) (iblk m c 4 t) (ix2 p q) = cellArr m c i := by
  have hq := q.isLt
  exact (cell_block m c t p q (i 0) (cellOf (i 1)) h0 (by show (i 1).val / 1024 = _; omega)).trans
    (congrArg Ideal.tanh (net_congr _ _ _ _ _ rfl rfl (by show 1024 + q.val = 1024 + (i 1).val % 1024; omega)))

/-- What point `t` writes back through the first output window is its block of the input gate. -/
theorem gate_flushed (c : Dev nD) (t : Fin cfg0.N) :
    (dats m 0 c).flushed 5 t = ((cfg0.win 5).blk t).view.read (Elt Ideal) (gateArr m c) := by
  show (cfg0.win 5).cut (grid0.coords t) ((dats m 0 c).after 5 t) = _
  rw [after0_5]
  unfold out0_5
  rw [View.canon_unit_zero zeros2]
  simp only [View.ld_unit_zero (S := S256x1024) zeros2, View.ld_unit_zero (S := S1x1024x2048) zeros3,
    View.ld_unit_zero (S := S1x1x2048) zeros3]
  obtain ⟨-, -, -, -, -, -, -, -, -, -, -, -, -, e0, e1, -⟩ := index_facts t
  funext (j : S256x1024.Idx)
  obtain ⟨p, q, rfl⟩ : ∃ (p : Fin 256) (q : Fin 1024), j = ix2 p q := ⟨j 0, j 1, eq_ix2 j⟩
  show k0_pay2 (iblk m c 0 t) (iblk m c 1 t) (iblk m c 2 t) (iblk m c 3 t) (iblk m c 4 t) (ix2 p q)
    = gateArr m c (((cfg0.win 5).blk t).view.emb (ix2 p q))
  exact gate_at m c t p q _
    (by show win0_5.index t (0 : Fin 2) * 256 + 1 * p.val = _; rw [e0]; omega)
    (by show win0_5.index t (1 : Fin 2) * 1024 + 1 * q.val = _; rw [e1]; omega)

/-- What point `t` writes back through the second output window is its block of the cell input. -/
theorem cell_flushed (c : Dev nD) (t : Fin cfg0.N) :
    (dats m 0 c).flushed 6 t = ((cfg0.win 6).blk t).view.read (Elt Ideal) (cellArr m c) := by
  show (cfg0.win 6).cut (grid0.coords t) ((dats m 0 c).after 6 t) = _
  rw [after0_6]
  unfold out0_6
  rw [View.canon_unit_zero zeros2]
  simp only [View.ld_unit_zero (S := S256x1024) zeros2, View.ld_unit_zero (S := S1x1024x2048) zeros3,
    View.ld_unit_zero (S := S1x1x2048) zeros3]
  obtain ⟨-, -, -, -, -, -, -, -, -, -, -, -, -, -, -, e0, e1⟩ := index_facts t
  funext (j : S256x1024.Idx)
  obtain ⟨p, q, rfl⟩ : ∃ (p : Fin 256) (q : Fin 1024), j = ix2 p q := ⟨j 0, j 1, eq_ix2 j⟩
  show k0_pay3 (iblk m c 0 t) (iblk m c 1 t) (iblk m c 2 t) (iblk m c 3 t) (iblk m c 4 t) (ix2 p q)
    = cellArr m c (((cfg0.win 6).blk t).view.emb (ix2 p q))
  exact cell_at m c t p q _
    (by show win0_6.index t (0 : Fin 2) * 256 + 1 * p.val = _; rw [e0]; omega)
    (by show win0_6.index t (1 : Fin 2) * 1024 + 1 * q.val = _; rw [e1]; omega)

/-- An index of the first result array is in point `t`'s block iff each coordinate is in the block's range. -/
theorem mem_gate_block (t : Fin cfg0.N) (i : S4096x16384.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v7_0).slice (win0_5.rect t)).set ↔ _
  rw [View.set_slice_whole, Rect.mem_set_unit]
  exact Iff.rfl

/-- The same for the second result array. -/
theorem mem_cell_block (t : Fin cfg0.N) (i : S4096x16384.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v7_1).slice (win0_6.rect t)).set ↔ _
  rw [View.set_slice_whole, Rect.mem_set_unit]
  exact Iff.rfl

/-- The point whose blocks hold row `r`, column `j`: cell `j / 1024`, batch tile `r / 256`. -/
theorem point_of (i : S4096x16384.Idx) : ∃ t : Fin cfg0.N, t.val = (i 1).val / 1024 * 16 + (i 0).val / 256 := by
  have hi0 : (i 0).val < 4096 := (i 0).isLt
  have hi1 : (i 1).val < 16384 := (i 1).isLt
  exact ⟨⟨(i 1).val / 1024 * 16 + (i 0).val / 256, by rw [show cfg0.N = 256 from N_0]; omega⟩, rfl⟩

/-- Every index of the first result array is in some point's block. -/
theorem gate_cover (i : S4096x16384.Idx) :
    ∃ t : Fin cfg0.N, (cfg0.win 5).flush t = true ∧ i ∈ ((cfg0.win 5).blk t).view.set := by
  have hi0 : (i 0).val < 4096 := (i 0).isLt
  have hi1 : (i 1).val < 16384 := (i 1).isLt
  obtain ⟨t, ht⟩ := point_of i
  obtain ⟨-, -, -, -, -, -, -, -, -, -, -, -, -, e0, e1, -⟩ := index_facts t
  refine ⟨t, flush0_5 t, ?_⟩
  rw [mem_gate_block]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 1024 ≤ (i 1).val ∧ (i 1).val < win0_5.index t (1 : Fin 2) * 1024 + 1024
    rw [e1, ht]; omega

/-- Every index of the second result array is in some point's block. -/
theorem cell_cover (i : S4096x16384.Idx) :
    ∃ t : Fin cfg0.N, (cfg0.win 6).flush t = true ∧ i ∈ ((cfg0.win 6).blk t).view.set := by
  have hi0 : (i 0).val < 4096 := (i 0).isLt
  have hi1 : (i 1).val < 16384 := (i 1).isLt
  obtain ⟨t, ht⟩ := point_of i
  obtain ⟨-, -, -, -, -, -, -, -, -, -, -, -, -, -, -, e0, e1⟩ := index_facts t
  refine ⟨t, flush0_6 t, ?_⟩
  rw [mem_cell_block]
  intro a
  match a with
  | ⟨0, _⟩ =>
    show win0_6.index t (0 : Fin 2) * 256 ≤ (i 0).val ∧ (i 0).val < win0_6.index t (0 : Fin 2) * 256 + 256
    rw [e0, ht]; omega
  | ⟨1, _⟩ =>
    show win0_6.index t (1 : Fin 2) * 1024 ≤ (i 1).val ∧ (i 1).val < win0_6.index t (1 : Fin 2) * 1024 + 1024
    rw [e1, ht]; omega

/-- After the region the first result array is the input gate on the lane-flattened shape. -/
theorem gate_final (c : Dev nD) : (dats m 0 c).arrAt 5 cfg0.N = gateArr m c :=
  (dats m 0 c).arrAt_eq_of_cover 5 (gateArr m c) (fun t _ => gate_flushed m c t) gate_cover

/-- After the region the second result array is the cell input on the lane-flattened shape. -/
theorem cell_final (c : Dev nD) : (dats m 0 c).arrAt 6 cfg0.N = cellArr m c :=
  (dats m 0 c).arrAt_eq_of_cover 6 (cellArr m c) (fun t _ => cell_flushed m c t) cell_cover

end Cert.KernelIdeal.Final

end
-- ==== Proof.LibLaneUnflatten.lean ====
/-
  A lane-flattened matrix reshaped to rank 3, read at an index.

  An `[a, n]` array with `n = b · c`, reshaped row-major to `[a, b, c]`, holds at `(r, k, l)` what the flat array holds at
  row `r`, column `k · c + l`: the reshape only splits the column coordinate into its quotient and remainder by `c`.
-/
import Idealize.ShloMosaic.Lib.Pipeline.Value
import Idealize.ShloMosaic.Lib.ValueIdx

namespace Idealize.ShloMosaic.LaneUnflatten

open Idealize.ShloMosaic Idealize.ShloMosaic.ValueIdx

/-- An `[a, n]` array reshaped to `[a, b, c]` (`n = b · c`) reads, at `(r, k, l)`, the flat array at `(r, j)` with
    `j = k · c + l`. Any element type. -/
theorem shapeCast_unflatten_apply {a b c n : ℕ} {α : Type} (x : (⟨2, ![a, n]⟩ : Shape).Idx → α)
    (h : (⟨2, ![a, n]⟩ : Shape).ShapeCasts ⟨3, ![a, b, c]⟩) (hn : n = b * c)
    (r : Fin a) (k : Fin b) (l : Fin c) (j : Fin n) (hj : j.val = k.val * c + l.val) :
    shapeCast ⟨3, ![a, b, c]⟩ x h (ix3 r k l) = x (ix2 r j) :=
  shapeCast_apply x h _ _ (by
    rw [Shape.rowMajor_val_two, Shape.rowMajor_val_three]
    show r.val * n + j.val = (r.val * b + k.val) * c + l.val
    rw [hj, hn]; ring)

end Idealize.ShloMosaic.LaneUnflatten
-- ==== Proof.Results.lean ====
/-
  The kernel program's two results.

  After the region the program reshapes each lane-flattened `[4096, 16384]` array to `[4096, 16, 1024]`, which splits a
  column `j` into cell `j / 1024` and unit `j % 1024`: exactly how the lane-flattened gate and cell input were laid out. So the
  program ends with the cell input and the input gate on the result shape, and its arguments unchanged.
-/
import proofs.«148823_j78735340470740_2_alg».proof.Proof.FinalArrays
import proofs.«148823_j78735340470740_2_alg».proof.Proof.LibLaneUnflatten
import Idealize.ShloMosaic.Lib.StableHlo.Run

noncomputable section

namespace Cert.KernelIdeal.Results

open Cert.KernelIdeal Cert.KernelIdeal.Gen Cert.KernelIdeal.Final Cert.GateCells
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg)

/-- The input gate of the program's arguments on core `c`. -/
abbrev gateOf (c : Dev nD) : S4096x16x1024.Idx → EReal :=
  gate (m ((c : Thread nD τ).loc main_arg0)) (m ((c : Thread nD τ).loc main_arg1)) (m ((c : Thread nD τ).loc main_arg2))
    (m ((c : Thread nD τ).loc main_arg3)) (m ((c : Thread nD τ).loc main_arg4))

/-- The cell input of the program's arguments on core `c`. -/
abbrev cellOfArgs (c : Dev nD) : S4096x16x1024.Idx → EReal :=
  cell (m ((c : Thread nD τ).loc main_arg0)) (m ((c : Thread nD τ).loc main_arg1)) (m ((c : Thread nD τ).loc main_arg2))
    (m ((c : Thread nD τ).loc main_arg3)) (m ((c : Thread nD τ).loc main_arg4))

/-- The lane-flattened gate, reshaped, is the gate on the result shape. -/
theorem gate_unflatten (c : Dev nD) :
    shapeCast S4096x16x1024 (gateArr m c) shapeCasts_S4096x16384_S4096x16x1024 = gateOf m c := by
  funext i
  obtain ⟨r, k, l, rfl⟩ : ∃ (r : Fin 4096) (k : Fin 16) (l : Fin 1024), i = ix3 r k l := ⟨i 0, i 1, i 2, eq_ix3 i⟩
  have hk := k.isLt
  have hl := l.isLt
  rw [LaneUnflatten.shapeCast_unflatten_apply (gateArr m c) _ rfl r k l ⟨k.val * 1024 + l.val, by omega⟩ rfl]
  show Ideal.logistic _ = Ideal.logistic _
  exact congrArg Ideal.logistic (net_congr _ _ _ _ _ rfl (by show (k.val * 1024 + l.val) / 1024 = k.val; omega)
    (by show (k.val * 1024 + l.val) % 1024 = l.val; omega))

/-- The lane-flattened cell input, reshaped, is the cell input on the result shape. -/
theorem cell_unflatten (c : Dev nD) :
    shapeCast S4096x16x1024 (cellArr m c) shapeCasts_S4096x16384_S4096x16x1024 = cellOfArgs m c := by
  funext i
  obtain ⟨r, k, l, rfl⟩ : ∃ (r : Fin 4096) (k : Fin 16) (l : Fin 1024), i = ix3 r k l := ⟨i 0, i 1, i 2, eq_ix3 i⟩
  have hk := k.isLt
  have hl := l.isLt
  rw [LaneUnflatten.shapeCast_unflatten_apply (cellArr m c) _ rfl r k l ⟨k.val * 1024 + l.val, by omega⟩ rfl]
  show Ideal.tanh _ = Ideal.tanh _
  exact congrArg Ideal.tanh (net_congr _ _ _ _ _ rfl (by show (k.val * 1024 + l.val) / 1024 = k.val; omega)
    (by show 1024 + (k.val * 1024 + l.val) % 1024 = 1024 + l.val; omega))

/-- What the region leaves in the first lane-flattened array, read through the valuation the later lines start from. -/
theorem left_gate (c : Dev nD) :
    Pipeline.withArrays (cfgs 0).spec c (V0 m c) (fun w => (dats m 0 c).arrAt w (cfgs 0).N) (Proc.devRef .tc main_v7_0)
      = gateArr m c :=
  (Pipeline.withArrays_arr spec0 launch0.win.arr_inj c _ _ 5).trans (gate_final m c)

/-- The same for the second lane-flattened array. -/
theorem left_cell (c : Dev nD) :
    Pipeline.withArrays (cfgs 0).spec c (V0 m c) (fun w => (dats m 0 c).arrAt w (cfgs 0).N) (Proc.devRef .tc main_v7_1)
      = cellArr m c :=
  (Pipeline.withArrays_arr spec0 launch0.win.arr_inj c _ _ 6).trans (cell_final m c)

/-- The program's second result: the input gate. -/
theorem gate_result (c : Dev nD) :
    Pipeline.afterTail₀ cfgs (dats m) 0 (V0 m) [hostOps1] c main_v8 = gateOf m c := by
  unfold Pipeline.afterTail₀
  show StableHlo.after hostOps1 _ (Proc.devRef .tc main_v8) = _
  after_results
  refine Eq.trans (funext fun i => ?_) (gate_unflatten m c)
  exact congrArg (fun A => shapeCast S4096x16x1024 A shapeCasts_S4096x16384_S4096x16x1024 i) (left_gate m c)

/-- The program's first result: the cell input. -/
theorem cell_result (c : Dev nD) :
    Pipeline.afterTail₀ cfgs (dats m) 0 (V0 m) [hostOps1] c main_v9 = cellOfArgs m c := by
  unfold Pipeline.afterTail₀
  show StableHlo.after hostOps1 _ (Proc.devRef .tc main_v9) = _
  after_results
  refine Eq.trans (funext fun i => ?_) (cell_unflatten m c)
  exact congrArg (fun A => shapeCast S4096x16x1024 A shapeCasts_S4096x16384_S4096x16x1024 i) (left_cell m c)

/-- Every weakly fair execution of the kernel program terminates with the cell input and the input gate in its two
    result buffers and its five arguments as launched. -/
theorem run : θ_run defs (onTc (τ := τ) (main (F := Ideal))) ⟨m, fun _ => 0, ρ⟩ fun r => ∀ c : Dev nD,
      r.2.mem ((c.tc : Thread nD τ).loc main_v9) = cellOfArgs m c
      ∧ r.2.mem ((c.tc : Thread nD τ).loc main_v8) = gateOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (cell_result m c),
      ((h c).2 main_v8 (Pipeline.mem_restRefs_of main_v8 (by decide) (by decide))).trans (gate_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Results

end
-- ==== Proof.lean ====
/-
  The certificate of the gated cell layer: the kernel program against its jnp reference on the extended reals.

  Both programs compute, for every batch row `b`, cell `c` and unit `o < 2048`, the pre-activation

      net b c o = (Σ_k x[b,k] · Wx[c,o,k] + Σ_k h[b,k] · Wh[c,o,k]) + bx[c,o],

  and return `tanh` of the units `1024 … 2047` (the cell input) and the logistic function of the units `0 … 1023` (the input
  gate), each as a `[4096, 16, 1024]` array. The kernel program narrows the operands to bf16 (the identity on the extended
  reals), transposes the weights, runs one grid point per (cell, batch tile) pair, each forming its `256 × 2048` block of
  pre-activations by two matrix products into zero and writing its two `256 × 1024` activation blocks into lane-flattened
  `[4096, 16384]` arrays, which it then reshapes. The reference contracts the whole arrays at once and spells the logistic
  function as `1 / (1 + exp (-z))`, which is its definition on the extended reals. Neither side regroups a sum, so no
  finiteness of the inputs is used.

  The three frames are the generated frame runs (the reference's is its generated run with the results dropped); the
  idealization rewrote nothing, so `preserves` is trivial; `algebraic` puts the kernel program's run
  (`Cert.KernelIdeal.Results.run`) beside the reference's generated run read back to the same two functions
  (`Cert.ReferenceIdeal.RefValue.cell_eq`, `gate_eq`).
-/
import proofs.«148823_j78735340470740_2_alg».proof.Defs
import proofs.«148823_j78735340470740_2_alg».proof.Proof.Gen.Kernel
import proofs.«148823_j78735340470740_2_alg».proof.Proof.Gen.Kernel.Skeleton
import proofs.«148823_j78735340470740_2_alg».proof.Proof.Gen.Kernel.Launch
import proofs.«148823_j78735340470740_2_alg».proof.Proof.Gen.Kernel.Points
import proofs.«148823_j78735340470740_2_alg».proof.Proof.Gen.Kernel.Frame
import proofs.«148823_j78735340470740_2_alg».proof.Proof.Gen.KernelIdeal
import proofs.«148823_j78735340470740_2_alg».proof.Proof.Gen.KernelIdeal.Skeleton
import proofs.«148823_j78735340470740_2_alg».proof.Proof.Gen.KernelIdeal.Launch
import proofs.«148823_j78735340470740_2_alg».proof.Proof.Gen.KernelIdeal.Points
import proofs.«148823_j78735340470740_2_alg».proof.Proof.Gen.KernelIdeal.Frame
import proofs.«148823_j78735340470740_2_alg».proof.Proof.Gen.ReferenceIdeal
import proofs.«148823_j78735340470740_2_alg».proof.Proof.Gen.ReferenceIdeal.Read
import proofs.«148823_j78735340470740_2_alg».proof.Proof.Gen.Pre_finite_inputs
import proofs.«148823_j78735340470740_2_alg».proof.Proof.RefIsSpec
import proofs.«148823_j78735340470740_2_alg».proof.Proof.Results
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the cell input and the input gate of those
    arguments in their result buffers. -/
theorem algebraic : Cert.algebraic_KernelIdeal_ReferenceIdeal := by
  intro m ρ m' ρ' _ hagree
  refine ⟨fun c => Cert.KernelIdeal.Results.cellOfArgs m c, fun c => Cert.KernelIdeal.Results.gateOf m c,
    Cert.KernelIdeal.Results.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v8_eq, Cert.ReferenceIdeal.RefValue.cell_eq,
      (hagree c).1, (hagree c).2.1, (hagree c).2.2.1, (hagree c).2.2.2.1, (hagree c).2.2.2.2]
  · rw [(h c).2.1, Cert.ReferenceIdeal.Read.val_main_v14_eq, Cert.ReferenceIdeal.RefValue.gate_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
